-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x64 : Shape := ⟨2, ![100000, 64]⟩
abbrev S64x256x256 : Shape := ⟨3, ![64, 256, 256]⟩
abbrev S2x1600000 : Shape := ⟨2, ![2, 1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x256x256 : S_.BroadcastsInDim S64x256x256 (![] : Fin 0 → Fin S64x256x256.rank)
  reducesTo_S64x256x256_S_d0_1_2 : S64x256x256.ReducesTo [0, 1, 2] S_

variable [Facts]

def fn {F : FTy → Type} [FloatOps F] (main_arg0 : FVec F S100000x256 .f32) (main_arg1 : FVec F S100000x64 .f32) (main_arg2 : FVec F S64x256x256 .f32) (main_arg3 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x256x256 .f32 := Host.absf main_arg2
  let main_cst_2 : FVec F S_ .f32 := constant S_ .f32 0x7F800000#32
  let main_v10 : FVec F S64x256x256 .f32 := broadcastInDim S64x256x256 ![] bcast_S_S64x256x256 main_cst_2
  let main_v11 : IVec S64x256x256 1 := cmpf .olt main_v9 main_v10
  let main_c_3 : IVec S_ 1 := constantI S_ 1 1#1
  let main_v12 : IVec S_ 1 := (fun x v => Host.reduce IntOp.andi x v reducesTo_S64x256x256_S_d0_1_2 h_S_) main_v11 main_c_3
  let main_v13 : IVec S_ 1 := andi main_v8 main_v12
  main_v13
-- ==== Kernel.lean ====
abbrev S100000x256 : Shape := ⟨2, ![100000, 256]⟩
abbrev S100000x64 : Shape := ⟨2, ![100000, 64]⟩
abbrev S64x256x256 : Shape := ⟨3, ![64, 256, 256]⟩
abbrev S2x1600000 : Shape := ⟨2, ![2, 1600000]⟩
abbrev S64x256 : Shape := ⟨2, ![64, 256]⟩
abbrev S5000x256 : Shape := ⟨2, ![5000, 256]⟩
abbrev S5000x64 : Shape := ⟨2, ![5000, 64]⟩
abbrev S5000 : Shape := ⟨1, ![5000]⟩
abbrev S5000x1 : Shape := ⟨2, ![5000, 1]⟩

abbrev nBuf : Space → Nat
  | .hbm => 6
  | .vmem => 9
  | .smem => 0
  | _ => 0

abbrev bufTy : (tb : Table) → Fin (tcTables nBuf tb) → BufTy
  | .hbm, ⟨0, _⟩ => ⟨S100000x256, .f32⟩
  | .hbm, ⟨1, _⟩ => ⟨S100000x64, .f32⟩
  | .hbm, ⟨2, _⟩ => ⟨S64x256x256, .f32⟩
  | .hbm, ⟨3, _⟩ => ⟨S2x1600000, .i32⟩
  | .hbm, ⟨4, _⟩ => ⟨S64x256, .f32⟩
  | .hbm, ⟨5, _⟩ => ⟨S100000x256, .f32⟩
  | .local _ .vmem, ⟨0, _⟩ => ⟨S64x256x256, .f32⟩
  | .local _ .vmem, ⟨1, _⟩ => ⟨S64x256, .f32⟩
  | .local _ .vmem, ⟨2, _⟩ => ⟨S5000x256, .f32⟩
  | .local _ .vmem, ⟨3, _⟩ => ⟨S5000x256, .f32⟩
  | .local _ .vmem, ⟨4, _⟩ => ⟨S5000x64, .f32⟩
  | .local _ .vmem, ⟨5, _⟩ => ⟨S5000x64, .f32⟩
  | .local _ .vmem, ⟨6, _⟩ => ⟨S64x256, .f32⟩
  | .local _ .vmem, ⟨7, _⟩ => ⟨S5000x256, .f32⟩
  | .local _ .vmem, ⟨8, _⟩ => ⟨S5000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S64x256x256_S64x256x256_0_0_0 : ∀ a, (![0, 0, 0] : Fin 3 → Nat) a + S64x256x256.size a ≤ S64x256x256.size a
  h_S64x256x256 : 0 < S64x256x256.numel
  reduces_S64x256x256_S64x256 : S64x256x256.Reduces [1] S64x256
  inb_S64x256_S64x256_0_0 : ∀ a, (![0, 0] : Fin 2 → Nat) a + S64x256.size a ≤ S64x256.size a
  h_S64x256 : 0 < S64x256.numel
  inb_S5000x256_S5000x256_0_0 : ∀ a, (![0, 0] : Fin 2 → Nat) a + S5000x256.size a ≤ S5000x256.size a
  h_S5000x256 : 0 < S5000x256.numel
  reduces_S5000x256_S5000 : S5000x256.Reduces [1] S5000
  shapeCasts_S5000_S5000x1 : S5000.ShapeCasts S5000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S64x256_S64x256 : S64x256.ShapeCasts S64x256
  broadcasts_S5000x1_S5000x256 : S5000x1.Broadcasts S5000x256
  dot_S5000x64_S64x256_S5000x256_1_0_0_1_n_n_wf : DotDims.WF S5000x64 S64x256 S5000x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x256x256.size a ≤ S64x256x256.size a
  hwx0_0 : ∀ i : grid0.Coords, EltTy.bits .f32 = 32 ∨ (Rect.block (s := S64x256x256) S64x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .f32 = 32 ∨ (Rect.block (s := S64x256) S64x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S100000x256.size a
  hwx1_3 : ∀ i : grid1.Coords, EltTy.bits .f32 = 32 ∨ (Rect.block (s := S100000x256) S5000x256.size (cc1_transform_3 i) (hinb1_3 i)).WholeWords (EltTy.packing .f32)

variable [Facts₀]

def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf

abbrev win0_0 : Pipeline.Window sig grid0 :=
  Pipeline.Window.ofSpec (Memref.whole main_arg2) S64x256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S64x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S100000x64 : Shape := ⟨2, ![100000, 64]⟩
abbrev S64x256x256 : Shape := ⟨3, ![64, 256, 256]⟩
abbrev S2x1600000 : Shape := ⟨2, ![2, 1600000]⟩
abbrev S_ : Shape := ⟨0, ![]⟩
abbrev S64x256 : Shape := ⟨2, ![64, 256]⟩
abbrev S100000 : Shape := ⟨1, ![100000]⟩
abbrev S100000x1 : Shape := ⟨2, ![100000, 1]⟩

abbrev nBuf : Space → Nat
  | .hbm => 15
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x64, .f32⟩
  | .hbm, ⟨2, _⟩ => ⟨S64x256x256, .f32⟩
  | .hbm, ⟨3, _⟩ => ⟨S2x1600000, .i32⟩
  | .hbm, ⟨4, _⟩ => ⟨S_, .f32⟩
  | .hbm, ⟨5, _⟩ => ⟨S100000x64, .f32⟩
  | .hbm, ⟨6, _⟩ => ⟨S100000x64, .f32⟩
  | .hbm, ⟨7, _⟩ => ⟨S_, .f32⟩
  | .hbm, ⟨8, _⟩ => ⟨S64x256, .f32⟩
  | .hbm, ⟨9, _⟩ => ⟨S_, .f32⟩
  | .hbm, ⟨10, _⟩ => ⟨S100000, .f32⟩
  | .hbm, ⟨11, _⟩ => ⟨S100000x256, .f32⟩
  | .hbm, ⟨12, _⟩ => ⟨S100000x1, .f32⟩
  | .hbm, ⟨13, _⟩ => ⟨S100000x256, .f32⟩
  | .hbm, ⟨14, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  reducesTo_S64x256x256_S64x256_d1 : S64x256x256.ReducesTo [1] S64x256
  h_S_ : 0 < S_.numel
  reducesTo_S100000x256_S100000_d1 : S100000x256.ReducesTo [1] S100000
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  dot_S100000x64_S64x256_S100000x256_1_0_0_1_n_n_wf : DotDims.WF S100000x64 S64x256 S100000x256 [1] [0] [0] [1] [] []

variable [Facts₀]

def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf

class Facts : Prop extends Facts₀ where

variable [Facts]
-- ==== Proof.KernelRun.lean ====
/-
  The program's run with its result named. The program is two kernel launches in a row with no host operation between
  them: the first writes the column sums of W into an intermediate array, the second reads x, cs and that array and
  writes the result. Every weakly fair execution terminates without a fault, the result array ends at what the second
  launch's write-backs leave of it (the fold of the blocks written back, over the contents the second launch was entered
  with), and the four argument arrays end as launched. The contents at each boundary are a fold through the program: the
  launch memory, then the first launch's arrays replaced by what it leaves, then the second's.
-/
import proofs.«100954_j70566312673746_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array holds what the second
    launch's write-backs leave of it, and the arguments are unchanged. The last thread state holds every unscoped buffer
    at the last boundary's contents; the result is read from it like the arguments are. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_arr m ρ c 3),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.Run

end
-- ==== Proof.Spec.lean ====
/-
  The specification. The result is one function of the three float arguments, index by index:

    out[e, o] = (Σ_r (1 / cs[e, r]) · (Σ_i W[r, i, o])) · (Σ_j x[e, j])

  the einsum 'er,rio,ej->eo' of 1/cs, W and x, factorized: the two free contractions (over i and over j) are summed
  first, and the contraction over r is a matrix product of the reciprocals with the column sums of W. Both programs
  compute exactly this arrangement, so no law of the extended reals beyond "0 + s = s" is needed, and finiteness of the
  inputs is never used. The literal 1 stays the word it is printed as: it is the same word on both sides.
-/
import Idealize.ShloMosaic.PureOps.Ideal
import Idealize.ShloMosaic.Lib.ValueIdx

noncomputable section

namespace Cert.Einsum

open Idealize.ShloMosaic Idealize.ShloMosaic.ValueIdx

/-- The shapes of the arguments x, cs, W and of the column sums of W. -/
abbrev ShX : Shape := ⟨2, ![100000, 256]⟩
abbrev ShC : Shape := ⟨2, ![100000, 64]⟩
abbrev ShW : Shape := ⟨3, ![64, 256, 256]⟩
abbrev ShS : Shape := ⟨2, ![64, 256]⟩

/-- The numerator of the reciprocals: the f32 word of 1.0, never evaluated. -/
abbrev oneLit : EReal := Ideal.ofBits .f32 0x3F800000#32

/-- Σ_i W[r, i, o]: W summed over its middle axis. -/
def colSum (W : ShW.Idx → EReal) (r : Fin 64) (o : Fin 256) : EReal := ∑ i : Fin 256, W (ix3 r i o)

/-- The column sums as an array of shape [64, 256]. -/
def colSums (W : ShW.Idx → EReal) : ShS.Idx → EReal := fun j => colSum W (j 0) (j 1)

/-- Σ_j x[e, j]: a row of x summed. -/
def rowSum (x : ShX.Idx → EReal) (e : Fin 100000) : EReal := ∑ j : Fin 256, x (ix2 e j)

/-- The product of the reciprocals of row e of cs with column o of an array S of shape [64, 256], times the sum of row e of x. -/
def entryOf (x : ShX.Idx → EReal) (cs : ShC.Idx → EReal) (S : ShS.Idx → EReal) (e : Fin 100000) (o : Fin 256) : EReal :=
  (∑ r : Fin 64, Ideal.div oneLit (cs (ix2 e r)) * S (ix2 r o)) * rowSum x e

/-- The second stage as a whole-array function of x, cs and an array S standing for the column sums. -/
def stage2 (x : ShX.Idx → EReal) (cs : ShC.Idx → EReal) (S : ShS.Idx → EReal) : ShX.Idx → EReal :=
  fun i => entryOf x cs S (i 0) (i 1)

/-- The result: the second stage at the column sums of W. -/
def G (x : ShX.Idx → EReal) (cs : ShC.Idx → EReal) (W : ShW.Idx → EReal) : ShX.Idx → EReal :=
  stage2 x cs (colSums W)

/-- The column sums read at (r, o). -/
theorem colSums_at (W : ShW.Idx → EReal) (r : Fin 64) (o : Fin 256) :
    colSums W (ix2 r o) = ∑ i : Fin 256, W (ix3 r i o) := rfl

/-- The second stage read at (e, o). -/
theorem stage2_at (x : ShX.Idx → EReal) (cs : ShC.Idx → EReal) (S : ShS.Idx → EReal) (e : Fin 100000) (o : Fin 256) :
    stage2 x cs S (ix2 e o)
      = (∑ r : Fin 64, Ideal.div oneLit (cs (ix2 e r)) * S (ix2 r o)) * ∑ j : Fin 256, x (ix2 e j) := rfl

end Cert.Einsum

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.KernelPay.lean ====
/-
  What each kernel body stores, read at an index at the ideal values.
  The first body stores, at (r, o), the sum over i of its loaded block of W at (r, i, o).
  The second body stores, at (p, o), the matrix product of the reciprocals of its block of cs with its block of the
  column sums, at (p, o), times the sum of row p of its block of x: the changes of float format on the way into the
  matrix product are the identity here, the product into a zero accumulator is the plain sum over the contracted axis,
  and the row sums, kept as a column and spread along the rows, are read back at (p, 0).
-/
import proofs.«100954_j70566312673746_1_alg».proof.Proof.Gen.KernelIdeal.Skeleton
import proofs.«100954_j70566312673746_1_alg».proof.Proof.Spec
import proofs.«100954_j70566312673746_1_alg».proof.Proof.LibKeptColumn
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Cert.Einsum
open Idealize.ShloMosaic Idealize.ShloMosaic.ValueIdx

/-- The first body's stored value at (r, o): the loaded block summed over its middle axis. -/
theorem colsum_at (v0 : FVec Ideal S64x256x256 .f32) (r : Fin 64) (o : Fin 256) :
    k0_pay1 (F := Ideal) v0 (ix2 r o) = ∑ i : Fin 256, v0 (ix3 r i o) := by
  unfold k0_pay1
  refine (Ideal.multiReduction_add_single v0 0x00000000#32 reduces_S64x256x256_S64x256 (.inl rfl) rfl (ix2 r o)).trans ?_
  refine Finset.sum_congr rfl fun i _ => congrArg v0 ?_
  funext a
  apply Fin.ext
  match a with
  | ⟨0, _⟩ => rfl
  | ⟨1, _⟩ => rfl
  | ⟨2, _⟩ => rfl

/-- A row of a [5000, 256] block summed along the row. -/
theorem rowsum_at (v0 : FVec Ideal S5000x256 .f32) (p : Fin 5000) :
    multiReduction (F := Ideal) .add [1] S5000 v0 0x00000000#32 reduces_S5000x256_S5000 (.inl rfl) rfl (ix1 p)
      = ∑ j : Fin 256, v0 (ix2 p j) := by
  refine (Ideal.multiReduction_add_single v0 0x00000000#32 reduces_S5000x256_S5000 (.inl rfl) rfl (ix1 p)).trans ?_
  refine Finset.sum_congr rfl fun j _ => congrArg v0 ?_
  funext a
  apply Fin.ext
  match a with
  | ⟨0, _⟩ => rfl
  | ⟨1, _⟩ => rfl

/-! ### The matrix product's operand indices: at output (p, o) and contracted coordinate k the left operand is read at
    (p, k) and the right at (k, o) -/

theorem lhs_row (i : S5000x256.Idx) (q : dot_S5000x64_S64x256_S5000x256_1_0_0_1_n_n.contr.Idx) : (dot_S5000x64_S64x256_S5000x256_1_0_0_1_n_n.lhsIdx i q 0).val = (i 0).val := by
  unfold DotDims.lhsIdx
  rw [dif_neg (show ¬(0 : Fin S5000x64.rank) ∈ dot_S5000x64_S64x256_S5000x256_1_0_0_1_n_n.lhsBatch by decide), dif_pos (show (0 : Fin S5000x64.rank) ∈ dot_S5000x64_S64x256_S5000x256_1_0_0_1_n_n.lhsNonContracting by decide)]
  rfl
theorem lhs_col (i : S5000x256.Idx) (q : dot_S5000x64_S64x256_S5000x256_1_0_0_1_n_n.contr.Idx) : (dot_S5000x64_S64x256_S5000x256_1_0_0_1_n_n.lhsIdx i q 1).val = (q ⟨0, by decide⟩).val :=
  dot_S5000x64_S64x256_S5000x256_1_0_0_1_n_n.lhsIdx_val_of_single rfl i q
theorem rhs_row (i : S5000x256.Idx) (q : dot_S5000x64_S64x256_S5000x256_1_0_0_1_n_n.contr.Idx) : (dot_S5000x64_S64x256_S5000x256_1_0_0_1_n_n.rhsIdx i q 0).val = (q ⟨0, by decide⟩).val :=
  dot_S5000x64_S64x256_S5000x256_1_0_0_1_n_n.rhsIdx_val_of_single rfl i q
theorem rhs_col (i : S5000x256.Idx) (q : dot_S5000x64_S64x256_S5000x256_1_0_0_1_n_n.contr.Idx) : (dot_S5000x64_S64x256_S5000x256_1_0_0_1_n_n.rhsIdx i q 1).val = (i 1).val := by
  unfold DotDims.rhsIdx
  rw [dif_neg (show ¬(1 : Fin S64x256.rank) ∈ dot_S5000x64_S64x256_S5000x256_1_0_0_1_n_n.rhsBatch by decide), dif_pos (show (1 : Fin S64x256.rank) ∈ dot_S5000x64_S64x256_S5000x256_1_0_0_1_n_n.rhsNonContracting by decide)]
  rfl

theorem lidx_at (p : Fin 5000) (o : Fin 256) (k : Fin 64) :
    dot_S5000x64_S64x256_S5000x256_1_0_0_1_n_n.lhsIdx (ix2 p o) ((contrEquiv1 dot_S5000x64_S64x256_S5000x256_1_0_0_1_n_n 64 rfl rfl).symm k) = ix2 p k := by
  have hk := contrEquiv1_symm_val dot_S5000x64_S64x256_S5000x256_1_0_0_1_n_n 64 rfl rfl k
  funext a
  apply Fin.ext
  match a with
  | ⟨0, _⟩ => exact lhs_row _ _
  | ⟨1, _⟩ => exact (lhs_col _ _).trans hk

theorem ridx_at (p : Fin 5000) (o : Fin 256) (k : Fin 64) :
    dot_S5000x64_S64x256_S5000x256_1_0_0_1_n_n.rhsIdx (ix2 p o) ((contrEquiv1 dot_S5000x64_S64x256_S5000x256_1_0_0_1_n_n 64 rfl rfl).symm k) = ix2 k o := by
  have hk := contrEquiv1_symm_val dot_S5000x64_S64x256_S5000x256_1_0_0_1_n_n 64 rfl rfl k
  funext a
  apply Fin.ext
  match a with
  | ⟨0, _⟩ => exact (rhs_row _ _).trans hk
  | ⟨1, _⟩ => exact rhs_col _ _

/-- The second body's stored value at (p, o). -/
theorem main_at (v0 : FVec Ideal S5000x256 .f32) (v3 : FVec Ideal S5000x64 .f32) (v7 : FVec Ideal S64x256 .f32)
    (p : Fin 5000) (o : Fin 256) :
    k1_pay1 (F := Ideal) v0 v3 v7 (ix2 p o)
      = (∑ r : Fin 64, Ideal.div oneLit (v3 (ix2 p r)) * v7 (ix2 r o)) * ∑ j : Fin 256, v0 (ix2 p j) := by
  unfold k1_pay1
  refine (mulf_apply _ _ (ix2 p o)).trans ?_
  refine congrArg₂ (· * ·) ?_ ?_
  · refine (Ideal.matmul_constant_zero_apply dot_S5000x64_S64x256_S5000x256_1_0_0_1_n_n none _ _ (ix2 p o)).trans ?_
    rw [← Equiv.sum_comp (contrEquiv1 dot_S5000x64_S64x256_S5000x256_1_0_0_1_n_n 64 rfl rfl).symm]
    refine Finset.sum_congr rfl fun k _ => ?_
    rw [lidx_at p o k, ridx_at p o k]
    refine congrArg₂ (· * ·) rfl ?_
    exact congrFun (shapeCast_self v7 shapeCasts_S64x256_S64x256) (ix2 k o)
  · refine (KeptColumn.broadcastTo_a1_ab_apply _ broadcasts_S5000x1_S5000x256 p o).trans ?_
    refine (KeptColumn.shapeCast_a_a1_apply _ shapeCasts_S5000_S5000x1 p 0).trans ?_
    exact rowsum_at v0 p

end Cert.KernelIdeal.Payload

end
-- ==== Proof.KernelValue.lean ====
/-
  From the blocks written back to the whole arrays, at the ideal values.
  The first launch has one grid point; its blocks are the whole arrays, so the intermediate array ends at the column
  sums of the array it read. The second launch has twenty grid points; point t reads rows 5000·t … 5000·t + 4999 of x and
  of cs, the whole intermediate array, and writes back the same rows of the result. What point t writes back is block t of
  ONE function of the arrays as the launch finds them (the second stage of the specification), and the twenty blocks
  cover the result array: row e lies in the block of point e / 5000. So the result array ends at that function.
  Between the launches nothing is written: the second launch finds x and cs as launched and the intermediate array at
  what the first left.
-/
import proofs.«100954_j70566312673746_1_alg».proof.Proof.Gen.KernelIdeal.Frame
import proofs.«100954_j70566312673746_1_alg».proof.Proof.KernelPay
import proofs.«100954_j70566312673746_1_alg».proof.Proof.Spec
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.Einsum
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem off2 : (![0, 0] : Fin 2 → Nat) = fun _ => 0 := funext fun a => by fin_cases a <;> rfl
theorem off3 : (![0, 0, 0] : Fin 3 → Nat) = fun _ => 0 := funext fun a => by fin_cases a <;> rfl

/-! ## The first launch: the column sums -/

/-- At the one grid point every block index is zero. -/
theorem first_index : ∀ t : Fin cfg0.N, win0_0.index t (0 : Fin 3) = 0 ∧ win0_0.index t (1 : Fin 3) = 0
    ∧ win0_0.index t (2 : Fin 3) = 0 ∧ win0_1.index t (0 : Fin 2) = 0 ∧ win0_1.index t (1 : Fin 2) = 0 :=
  (by decide +kernel : ∀ t : Fin grid0.N, _)

/-- The block of W at the one point is W itself. -/
theorem read_W (c : Dev nD) (t : Fin cfg0.N) (r : Fin 64) (i : Fin 256) (o : Fin 256) :
    (iblk0 V c 0 t : FVec Ideal S64x256x256 .f32) (ix3 r i o) = (V c main_arg2 : S64x256x256.Idx → EReal) (ix3 r i o) := by
  obtain ⟨e0, e1, e2, -, -⟩ := first_index t
  unfold iblk0
  rw [View.read_apply]
  show (V c main_arg2 : S64x256x256.Idx → EReal) (((cfg0.win 0).blk t).view.emb (ix3 r i o)) = _
  refine congrArg (V c main_arg2 : S64x256x256.Idx → EReal) ?_
  funext a
  apply Fin.ext
  match a with
  | ⟨0, _⟩ => show win0_0.index t (0 : Fin 3) * 64 + 1 * r.val = r.val; omega
  | ⟨1, _⟩ => show win0_0.index t (1 : Fin 3) * 256 + 1 * i.val = i.val; omega
  | ⟨2, _⟩ => show win0_0.index t (2 : Fin 3) * 256 + 1 * o.val = o.val; omega

/-- The first body's stored value at a block coordinate is the column sum of the array the launch reads, at the array
    index with the same coordinates. -/
theorem colsums_block (c : Dev nD) (t : Fin cfg0.N) (y : S64x256.Idx) (k : S64x256.Idx)
    (h0 : (k 0).val = (y 0).val) (h1 : (k 1).val = (y 1).val) :
    k0_pay1 (F := Ideal) (iblk0 V c 0 t) y = colSums (V c main_arg2 : S64x256x256.Idx → EReal) k := by
  obtain ⟨r, o, rfl⟩ : ∃ (r : Fin 64) (o : Fin 256), y = ix2 r o := ⟨y 0, y 1, eq_ix2 y⟩
  obtain ⟨r', o', rfl⟩ : ∃ (r' : Fin 64) (o' : Fin 256), k = ix2 r' o' := ⟨k 0, k 1, eq_ix2 k⟩
  obtain rfl : r' = r := Fin.ext h0
  obtain rfl : o' = o := Fin.ext h1
  refine (Payload.colsum_at (iblk0 V c 0 t) r' o').trans ?_
  refine Eq.trans ?_ (colSums_at (V c main_arg2) r' o').symm
  exact Finset.sum_congr rfl fun i _ => read_W V c t r' i o'

/-- What the one point writes back is its block of the column sums. -/
theorem flushed_colsums (c : Dev nD) (t : Fin cfg0.N) :
    (dat0 V c).flushed 1 t
      = ((cfg0.win 1).blk t).view.read (Elt Ideal) (colSums (V c main_arg2 : S64x256x256.Idx → EReal)) := by
  show (cfg0.win 1).cut (grid0.coords t) ((dat0 V c).after 1 t) = _
  rw [after0_1]
  unfold out0_1
  rw [View.canon_unit_zero off2]
  simp only [View.ld_unit_zero (S := S64x256x256) off3]
  obtain ⟨-, -, -, e3, e4⟩ := first_index t
  funext j
  show k0_pay1 (F := Ideal) (iblk0 V c 0 t) j
    = colSums (V c main_arg2 : S64x256x256.Idx → EReal) (((cfg0.win 1).blk t).view.emb j)
  refine colsums_block V c t j _ ?_ ?_
  · show win0_1.index t (0 : Fin 2) * 64 + 1 * (j 0).val = (j 0).val; omega
  · show win0_1.index t (1 : Fin 2) * 256 + 1 * (j 1).val = (j 1).val; omega

/-- An index of the intermediate array is in a point's block iff each coordinate is in the block's range. -/
theorem mem_first_block (t : Fin cfg0.N) (i : S64x256.Idx) :
    i ∈ ((cfg0.win 1).blk t).view.set ↔ ∀ a : Fin 2, win0_1.index t a * S64x256.size a ≤ (i a).val
      ∧ (i a).val < win0_1.index t a * S64x256.size a + S64x256.size a := by
  show i ∈ ((View.whole main_v0).slice (win0_1.rect t)).set ↔ _
  rw [View.set_slice_whole, Rect.mem_set_unit]
  exact Iff.rfl

/-- The one block is the whole intermediate array. -/
theorem first_cover (i : S64x256.Idx) :
    ∃ t : Fin cfg0.N, (cfg0.win 1).flush t = true ∧ i ∈ ((cfg0.win 1).blk t).view.set := by
  have hi0 : (i 0).val < 64 := (i 0).isLt
  have hi1 : (i 1).val < 256 := (i 1).isLt
  refine ⟨t0_0, flush0_1 t0_0, ?_⟩
  rw [mem_first_block]
  obtain ⟨-, -, -, e3, e4⟩ := first_index t0_0
  intro a
  match a with
  | ⟨0, _⟩ =>
    show win0_1.index t0_0 (0 : Fin 2) * 64 ≤ (i 0).val ∧ (i 0).val < win0_1.index t0_0 (0 : Fin 2) * 64 + 64; omega
  | ⟨1, _⟩ =>
    show win0_1.index t0_0 (1 : Fin 2) * 256 ≤ (i 1).val ∧ (i 1).val < win0_1.index t0_0 (1 : Fin 2) * 256 + 256; omega

/-- After the first launch the intermediate array holds the column sums of the array the launch read. -/
theorem final_colsums (c : Dev nD) :
    (dat0 V c).arrAt 1 cfg0.N = colSums (V c main_arg2 : S64x256x256.Idx → EReal) :=
  (dat0 V c).arrAt_eq_of_cover 1 (colSums (V c main_arg2 : S64x256x256.Idx → EReal))
    (fun t _ => flushed_colsums V c t) first_cover

/-! ## The second launch: the reciprocals times the column sums, times the row sums -/

/-- Over the twenty points: the blocks of x, of cs and of the result move with the point along the rows; the
    intermediate array's block stays. -/
theorem second_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block of x is row 5000·t + p of x. -/
theorem read_x (c : Dev nD) (t : Fin cfg1.N) (p : Fin 5000) (j : Fin 256) (k : S100000x256.Idx)
    (h0 : (k 0).val = t.val * 5000 + p.val) (h1 : (k 1).val = j.val) :
    (iblk1 V c 0 t : FVec Ideal S5000x256 .f32) (ix2 p j) = (V c main_arg0 : S100000x256.Idx → EReal) k := by
  obtain ⟨e0, e1, -⟩ := second_index t
  unfold iblk1
  rw [View.read_apply]
  show (V c main_arg0 : S100000x256.Idx → EReal) (((cfg1.win 0).blk t).view.emb (ix2 p j)) = _
  refine congrArg (V c main_arg0 : S100000x256.Idx → EReal) ?_
  funext a
  apply Fin.ext
  match a with
  | ⟨0, _⟩ => show win1_0.index t (0 : Fin 2) * 5000 + 1 * p.val = (k 0).val; omega
  | ⟨1, _⟩ => show win1_0.index t (1 : Fin 2) * 256 + 1 * j.val = (k 1).val; omega

/-- Row p of point t's block of cs is row 5000·t + p of cs. -/
theorem read_cs (c : Dev nD) (t : Fin cfg1.N) (p : Fin 5000) (r : Fin 64) (k : S100000x64.Idx)
    (h0 : (k 0).val = t.val * 5000 + p.val) (h1 : (k 1).val = r.val) :
    (iblk1 V c 1 t : FVec Ideal S5000x64 .f32) (ix2 p r) = (V c main_arg1 : S100000x64.Idx → EReal) k := by
  obtain ⟨-, -, e2, e3, -⟩ := second_index t
  unfold iblk1
  rw [View.read_apply]
  show (V c main_arg1 : S100000x64.Idx → EReal) (((cfg1.win 1).blk t).view.emb (ix2 p r)) = _
  refine congrArg (V c main_arg1 : S100000x64.Idx → EReal) ?_
  funext a
  apply Fin.ext
  match a with
  | ⟨0, _⟩ => show win1_1.index t (0 : Fin 2) * 5000 + 1 * p.val = (k 0).val; omega
  | ⟨1, _⟩ => show win1_1.index t (1 : Fin 2) * 64 + 1 * r.val = (k 1).val; omega

/-- Every point's block of the intermediate array is the array itself. -/
theorem read_S (c : Dev nD) (t : Fin cfg1.N) (r : Fin 64) (o : Fin 256) :
    (iblk1 V c 2 t : FVec Ideal S64x256 .f32) (ix2 r o) = (V c main_v0 : S64x256.Idx → EReal) (ix2 r o) := by
  obtain ⟨-, -, -, -, e4, e5, -⟩ := second_index t
  unfold iblk1
  rw [View.read_apply]
  show (V c main_v0 : S64x256.Idx → EReal) (((cfg1.win 2).blk t).view.emb (ix2 r o)) = _
  refine congrArg (V c main_v0 : S64x256.Idx → EReal) ?_
  funext a
  apply Fin.ext
  match a with
  | ⟨0, _⟩ => show win1_2.index t (0 : Fin 2) * 64 + 1 * r.val = r.val; omega
  | ⟨1, _⟩ => show win1_2.index t (1 : Fin 2) * 256 + 1 * o.val = o.val; omega

/-- The second body's stored value at block coordinate (p, o) of point t is the second stage of the specification, of the
    arrays as the launch finds them, at (5000·t + p, o). -/
theorem stage2_block (c : Dev nD) (t : Fin cfg1.N) (y : S5000x256.Idx) (k : S100000x256.Idx)
    (h0 : (k 0).val = t.val * 5000 + (y 0).val) (h1 : (k 1).val = (y 1).val) :
    k1_pay1 (F := Ideal) (iblk1 V c 0 t) (iblk1 V c 1 t) (iblk1 V c 2 t) y
      = stage2 (V c main_arg0 : S100000x256.Idx → EReal) (V c main_arg1 : S100000x64.Idx → EReal)
          (V c main_v0 : S64x256.Idx → EReal) k := by
  obtain ⟨p, o, rfl⟩ : ∃ (p : Fin 5000) (o : Fin 256), y = ix2 p o := ⟨y 0, y 1, eq_ix2 y⟩
  obtain ⟨e, o', rfl⟩ : ∃ (e : Fin 100000) (o' : Fin 256), k = ix2 e o' := ⟨k 0, k 1, eq_ix2 k⟩
  obtain rfl : o' = o := Fin.ext h1
  have he : e.val = t.val * 5000 + p.val := h0
  refine (Payload.main_at (iblk1 V c 0 t) (iblk1 V c 1 t) (iblk1 V c 2 t) p o').trans ?_
  refine Eq.trans ?_ (stage2_at (V c main_arg0) (V c main_arg1) (V c main_v0) e o').symm
  refine congrArg₂ (· * ·) (Finset.sum_congr rfl fun r _ => ?_) (Finset.sum_congr rfl fun j _ => ?_)
  · exact congrArg₂ (fun a b : EReal => Ideal.div oneLit a * b) (read_cs V c t p r (ix2 e r) he rfl) (read_S V c t r o')
  · exact read_x V c t p j (ix2 e j) he rfl

/-- What point t writes back is block t of the second stage, of the arrays as the launch finds them. -/
theorem flushed_stage2 (c : Dev nD) (t : Fin cfg1.N) :
    (dat1 V c).flushed 3 t
      = ((cfg1.win 3).blk t).view.read (Elt Ideal) (stage2 (V c main_arg0 : S100000x256.Idx → EReal)
          (V c main_arg1 : S100000x64.Idx → EReal) (V c main_v0 : S64x256.Idx → EReal)) := by
  show (cfg1.win 3).cut (grid1.coords t) ((dat1 V c).after 3 t) = _
  rw [after1_3]
  unfold out1_3
  rw [View.canon_unit_zero off2]
  simp only [View.ld_unit_zero (S := S5000x256) off2, View.ld_unit_zero (S := S5000x64) off2,
    View.ld_unit_zero (S := S64x256) off2]
  obtain ⟨-, -, -, -, -, -, e6, e7⟩ := second_index t
  funext j
  show k1_pay1 (F := Ideal) (iblk1 V c 0 t) (iblk1 V c 1 t) (iblk1 V c 2 t) j
    = stage2 (V c main_arg0 : S100000x256.Idx → EReal) (V c main_arg1 : S100000x64.Idx → EReal)
        (V c main_v0 : S64x256.Idx → EReal) (((cfg1.win 3).blk t).view.emb j)
  refine stage2_block V c t j _ ?_ ?_
  · show win1_3.index t (0 : Fin 2) * 5000 + 1 * (j 0).val = t.val * 5000 + (j 0).val; omega
  · show win1_3.index t (1 : Fin 2) * 256 + 1 * (j 1).val = (j 1).val; omega

/-- An index of the result array is in a point's block iff each coordinate is in the block's range. -/
theorem mem_result_block (t : Fin cfg1.N) (i : S100000x256.Idx) :
    i ∈ ((cfg1.win 3).blk t).view.set ↔ ∀ a : Fin 2, win1_3.index t a * S5000x256.size a ≤ (i a).val
      ∧ (i a).val < win1_3.index t a * S5000x256.size a + S5000x256.size a := by
  show i ∈ ((View.whole main_v1).slice (win1_3.rect t)).set ↔ _
  rw [View.set_slice_whole, Rect.mem_set_unit]
  exact Iff.rfl

/-- The twenty blocks cover the result array: row e is in the block of point e / 5000. -/
theorem second_cover (i : S100000x256.Idx) :
    ∃ t : Fin cfg1.N, (cfg1.win 3).flush t = true ∧ i ∈ ((cfg1.win 3).blk t).view.set := by
  have hi0 : (i 0).val < 100000 := (i 0).isLt
  have hi1 : (i 1).val < 256 := (i 1).isLt
  obtain ⟨t, htv⟩ : ∃ t : Fin cfg1.N, t.val = (i 0).val / 5000 :=
    ⟨⟨(i 0).val / 5000, by rw [show cfg1.N = 20 from N_1]; omega⟩, rfl⟩
  refine ⟨t, flush1_3 t, ?_⟩
  rw [mem_result_block]
  obtain ⟨-, -, -, -, -, -, e6, e7⟩ := second_index t
  intro a
  match a with
  | ⟨0, _⟩ =>
    show win1_3.index t (0 : Fin 2) * 5000 ≤ (i 0).val ∧ (i 0).val < win1_3.index t (0 : Fin 2) * 5000 + 5000; omega
  | ⟨1, _⟩ =>
    show win1_3.index t (1 : Fin 2) * 256 ≤ (i 1).val ∧ (i 1).val < win1_3.index t (1 : Fin 2) * 256 + 256; omega

/-- After the second launch the result array holds the second stage of the arrays the launch found. -/
theorem final_stage2 (c : Dev nD) :
    (dat1 V c).arrAt 3 cfg1.N = stage2 (V c main_arg0 : S100000x256.Idx → EReal)
      (V c main_arg1 : S100000x64.Idx → EReal) (V c main_v0 : S64x256.Idx → EReal) :=
  (dat1 V c).arrAt_eq_of_cover 3 (stage2 (V c main_arg0 : S100000x256.Idx → EReal)
      (V c main_arg1 : S100000x64.Idx → EReal) (V c main_v0 : S64x256.Idx → EReal))
    (fun t _ => flushed_stage2 V c t) second_cover

/-! ## The two launches in a row -/

variable (m : (ℓ : Loc nD τ sig) → Buf (Elt Ideal) ℓ) (ρ : Dev nD → PrngReg)

/-- The second launch finds x as launched: the first launch does not touch it. -/
theorem entry_x (c : Dev nD) : V1 m ρ c main_arg0 = m ((c : Thread nD τ).loc main_arg0) :=
  W1_of_ne m ρ c main_arg0 (by decide)

/-- The second launch finds cs as launched. -/
theorem entry_cs (c : Dev nD) : V1 m ρ c main_arg1 = m ((c : Thread nD τ).loc main_arg1) :=
  W1_of_ne m ρ c main_arg1 (by decide)

/-- The second launch finds the intermediate array at the column sums of W as launched. -/
theorem entry_S (c : Dev nD) :
    V1 m ρ c main_v0 = colSums (m ((c : Thread nD τ).loc main_arg2) : S64x256x256.Idx → EReal) :=
  (W1_arr m ρ c 1).trans (final_colsums (V0 m ρ) c)

/-- The result array after the run is the specification of the arguments as launched. -/
theorem result_eq (c : Dev nD) :
    (dat1 (V1 m ρ) c).arrAt 3 cfg1.N
      = G (m ((c : Thread nD τ).loc main_arg0) : S100000x256.Idx → EReal)
          (m ((c : Thread nD τ).loc main_arg1) : S100000x64.Idx → EReal)
          (m ((c : Thread nD τ).loc main_arg2) : S64x256x256.Idx → EReal) := by
  refine (final_stage2 (V1 m ρ) c).trans ?_
  rw [entry_x m ρ c, entry_cs m ρ c, entry_S m ρ c]
  rfl

end Cert.KernelIdeal.Arrays

end
-- ==== Proof.RefValue.lean ====
/-
  The reference, read at an index, is the specification. Its result at (e, o) is the product of two factors: its
  matrix product of the reciprocals 1/cs with the sums of W over the middle axis, at (e, o), and the sum of row e of x,
  spread along the row. Each host sum starts from the zero word, which adds nothing. What is left is to identify the
  indices at which the operations read their operands with the coordinates (e, r), (r, i, o) and (e, j).
-/
import proofs.«100954_j70566312673746_1_alg».proof.Proof.Gen.ReferenceIdeal.Read
import proofs.«100954_j70566312673746_1_alg».proof.Proof.Spec

noncomputable section

namespace Cert.ReferenceIdeal.AtIndex

open Cert.ReferenceIdeal Cert.ReferenceIdeal.Read Cert.Einsum
open Idealize.ShloMosaic Idealize.ShloMosaic.ValueIdx

/-- The left operand of the matrix product at (e, o), k is read at (e, k). -/
theorem lidx_eq (e : Fin 100000) (o : Fin 256) (k : Fin 64) : lidx_main_v4 (ix2 e o) k = ix2 e k :=
  funext fun a => Fin.ext (by match a with | ⟨0, _⟩ => rfl | ⟨1, _⟩ => rfl)

/-- The right operand of the matrix product at (e, o), k is read at (k, o). -/
theorem ridx_eq (e : Fin 100000) (o : Fin 256) (k : Fin 64) : ridx_main_v4 (ix2 e o) k = ix2 k o :=
  funext fun a => Fin.ext (by match a with | ⟨0, _⟩ => rfl | ⟨1, _⟩ => rfl)

/-- The sum of W over its middle axis at (r, o) reads W at (r, i, o). -/
theorem widx_eq (r : Fin 64) (o : Fin 256) (i : Fin 256) : idx_main_v2 (ix2 r o) i = ix3 r i o :=
  funext fun a => Fin.ext (by match a with | ⟨0, _⟩ => rfl | ⟨1, _⟩ => rfl | ⟨2, _⟩ => rfl)

/-- The row sum spread to (e, o) reads x at (e, j). -/
theorem xidx_eq (e : Fin 100000) (o : Fin 256) (j : Fin 256) :
    idx_main_v3 (idx_main_v5 (idx_main_v6 (ix2 e o))) j = ix2 e j :=
  funext fun a => Fin.ext (by match a with | ⟨0, _⟩ => rfl | ⟨1, _⟩ => rfl)

/-- The reference's result, as a function of its three float arguments, is the specification. -/
theorem result_eq (x0 : ShX.Idx → EReal) (x1 : ShC.Idx → EReal) (x2 : ShW.Idx → EReal) :
    val_main_v7 (F := Ideal) x0 x1 x2 = G x0 x1 x2 := by
  funext i
  obtain ⟨e, o, rfl⟩ : ∃ (e : Fin 100000) (o : Fin 256), i = ix2 e o := ⟨i 0, i 1, eq_ix2 i⟩
  rw [val_main_v7_apply, val_main_v4_apply, val_main_v6_apply, val_main_v5_apply, val_main_v3_apply]
  simp only [val_main_v1_apply, val_main_v0_apply, val_main_cst_apply, val_main_v2_apply, val_main_cst_0_apply,
    val_main_cst_1_apply, Ideal.mulf_def, Ideal.hostDivf_def, Ideal.ofBits_def, Ideal.ofBits_zero_f32, zero_add,
    lidx_eq, ridx_eq, widx_eq, xidx_eq]
  rfl

end Cert.ReferenceIdeal.AtIndex

end
-- ==== Proof.lean ====
/-
  The kernel computes the einsum 'er,rio,ej->eo' of 1/cs, W and x in its factorized form

    out[e, o] = (Σ_r (1 / cs[e, r]) · (Σ_i W[r, i, o])) · (Σ_j x[e, j])

  by two launches: the first sums W over its middle axis into a [64, 256] array, the second, twenty row blocks of 5000
  rows each, multiplies the reciprocals of a block of cs with that array and scales each row by the sum of the same row of
  x. The reference computes the same arrangement on the host: the reciprocals, the two sums, a matrix product, a
  product with the row sums spread along the rows. At the ideal values the roundings to a narrower float format on the way
  into the kernel's matrix product are the identity, a matrix product into a zero accumulator and the host's matrix
  product are the same sum over the contracted axis, and a sum started from the zero word is the plain sum: the two
  results are one function of the arguments, index by index (Proof/Spec.lean), with no use of the inputs' finiteness.
  The idealized kernel is the kernel's own text read at the ideal values (no rewrite), so there is nothing to preserve.
  The three frames: each kernel program's run is the run of its two launches in a row; the reference's is its host
  operations' run with the result dropped.
-/
import proofs.«100954_j70566312673746_1_alg».proof.Defs
import proofs.«100954_j70566312673746_1_alg».proof.Proof.Gen.Kernel
import proofs.«100954_j70566312673746_1_alg».proof.Proof.Gen.Kernel.Skeleton
import proofs.«100954_j70566312673746_1_alg».proof.Proof.Gen.Kernel.Launch
import proofs.«100954_j70566312673746_1_alg».proof.Proof.Gen.Kernel.Points
import proofs.«100954_j70566312673746_1_alg».proof.Proof.Gen.Kernel.Frame
import proofs.«100954_j70566312673746_1_alg».proof.Proof.Gen.KernelIdeal
import proofs.«100954_j70566312673746_1_alg».proof.Proof.Gen.KernelIdeal.Skeleton
import proofs.«100954_j70566312673746_1_alg».proof.Proof.Gen.KernelIdeal.Launch
import proofs.«100954_j70566312673746_1_alg».proof.Proof.Gen.KernelIdeal.Points
import proofs.«100954_j70566312673746_1_alg».proof.Proof.Gen.KernelIdeal.Frame
import proofs.«100954_j70566312673746_1_alg».proof.Proof.Gen.ReferenceIdeal
import proofs.«100954_j70566312673746_1_alg».proof.Proof.Gen.Pre_finite_inputs
import proofs.«100954_j70566312673746_1_alg».proof.Proof.Gen.ReferenceIdeal.Run
import proofs.«100954_j70566312673746_1_alg».proof.Proof.Gen.ReferenceIdeal.Read
import proofs.«100954_j70566312673746_1_alg».proof.Proof.KernelRun
import proofs.«100954_j70566312673746_1_alg».proof.Proof.KernelValue
import proofs.«100954_j70566312673746_1_alg».proof.Proof.RefValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read at the ideal values. -/
theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading, so the claim about rewrites is the trivial one. -/
theorem preserves : Cert.preserves_Kernel_KernelIdeal := trivial

/-- Both programs end with the result array at the specification of the arguments: the kernel by its two launches'
    write-backs, the reference by its operations read at an index; the arguments agree, so the results are equal. -/
theorem algebraic : Cert.algebraic_KernelIdeal_ReferenceIdeal := by
  intro m ρ m' ρ' _ hagree
  refine ⟨fun c => Cert.Einsum.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Arrays.result_eq m ρ c), (h c).2⟩)
      (Cert.KernelIdeal.Run.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.ReferenceIdeal.AtIndex.result_eq,
      (hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
